-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S256x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S256x256 : Shape := ⟨2, ![256, 256]⟩
abbrev S256 : Shape := ⟨1, ![256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S131072x256 .f32) (main_arg1 : FVec F S256x256 .f32) (main_arg2 : FVec F S256 .f32) (main_arg3 : FVec F S256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S131072x256 : Shape := ⟨2, ![131072, 256]⟩
abbrev S256x256 : Shape := ⟨2, ![256, 256]⟩
abbrev S256 : Shape := ⟨1, ![256]⟩
abbrev S1x256 : Shape := ⟨2, ![1, 256]⟩
abbrev S4096x256 : Shape := ⟨2, ![4096, 256]⟩

abbrev nBuf : Space → Nat
  | .hbm => 7
  | .vmem => 7
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S1x256, .f32⟩
  | .hbm, ⟨5, _⟩ => ⟨S1x256, .f32⟩
  | .hbm, ⟨6, _⟩ => ⟨S131072x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S4096x256, .f32⟩
  | .local _ .vmem, ⟨6, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  broadcasts_S1x256_S4096x256 : S1x256.Broadcasts S4096x256
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x256.size a ≤ S131072x256.size a
  hwx0_4 : ∀ i : grid0.Coords, EltTy.bits .f32 = 32 ∨ (Rect.block (s := S131072x256) S4096x256.size (cc0_transform_4 i) (hinb0_4 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4096x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 14
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S256x256, .f32⟩
  | .hbm, ⟨2, _⟩ => ⟨S256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x1, .f32⟩
  | .hbm, ⟨8, _⟩ => ⟨S256x256, .f32⟩
  | .hbm, ⟨9, _⟩ => ⟨S256x256, .f32⟩
  | .hbm, ⟨10, _⟩ => ⟨S131072x256, .f32⟩
  | .hbm, ⟨11, _⟩ => ⟨S1x256, .f32⟩
  | .hbm, ⟨12, _⟩ => ⟨S131072x256, .f32⟩
  | .hbm, ⟨13, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  dot_S131072x256_S256x256_S131072x256_1_1_0_0_n_n_wf : DotDims.WF S131072x256 S256x256 S131072x256 [1] [1] [0] [0] [] []

variable [Facts₀]

def dot_S131072x256_S256x256_S131072x256_1_1_0_0_n_n : DotDims S131072x256 S256x256 S131072x256 where
  lhsContracting := [1]
  rhsContracting := [1]
  lhsNonContracting := [0]
  rhsNonContracting := [0]
  lhsBatch := []
  rhsBatch := []
  wf := dot_S131072x256_S256x256_S131072x256_1_1_0_0_n_n_wf

class Facts : Prop extends Facts₀ where

variable [Facts]
-- ==== Proof.Spec.lean ====
/-
  A linear layer whose weights are the signs of a latent matrix, on the extended reals.

  For an input `x` with `M` rows and 256 columns, a latent weight matrix `W` (256 output channels by 256 input
  features), a per-channel `scale` and a `bias`, the layer's entry at row `p` and channel `q` is

      ∑ k, x[p,k] · (sign W[q,k] · scale[q])  +  bias[q].

  A row of the result depends on that row of `x` only.
  The straight-through spelling of the binarised weight, `W + (sign W − W)`, is `sign W` wherever `W` is a real
  number; at an infinity the difference `sign W − W` is the opposite infinity and the sum is not `±1`, so this
  identity is where finiteness of the weights is used.
-/
import Idealize.ShloMosaic.Lib.ValueIdx
import Idealize.ShloMosaic.PureOps.Ideal.Laws

noncomputable section

namespace Cert.SignLinear

open Idealize.ShloMosaic Idealize.ShloMosaic.ValueIdx

/-- The layer's entry at row `p`, channel `q`. -/
def entry {M : ℕ} (x : (⟨2, ![M, 256]⟩ : Shape).Idx → EReal) (W : (⟨2, ![256, 256]⟩ : Shape).Idx → EReal)
    (scale bias : (⟨1, ![256]⟩ : Shape).Idx → EReal) (p : Fin M) (q : Fin 256) : EReal :=
  (∑ k : Fin 256, x (ix2 p k) * (Ideal.sign (W (ix2 q k)) * scale (ix1 q))) + bias (ix1 q)

/-- The layer as a whole array: entry `(p, q)` of the result is `entry … p q`. -/
def layer (M : ℕ) (x : (⟨2, ![M, 256]⟩ : Shape).Idx → EReal) (W : (⟨2, ![256, 256]⟩ : Shape).Idx → EReal)
    (scale bias : (⟨1, ![256]⟩ : Shape).Idx → EReal) : (⟨2, ![M, 256]⟩ : Shape).Idx → EReal :=
  fun j => entry x W scale bias (j 0) (j 1)

theorem layer_apply (M : ℕ) (x : (⟨2, ![M, 256]⟩ : Shape).Idx → EReal) (W : (⟨2, ![256, 256]⟩ : Shape).Idx → EReal)
    (scale bias : (⟨1, ![256]⟩ : Shape).Idx → EReal) (p : Fin M) (q : Fin 256) :
    layer M x W scale bias (ix2 p q) = entry x W scale bias p q := rfl

/-- The straight-through weight `w + (sign w − w)` is `sign w` at every real `w`. -/
theorem ste_eq_sign (w : EReal) (hw : ∃ r : ℝ, w = (r : EReal)) : w + (Ideal.sign w - w) = Ideal.sign w := by
  obtain ⟨r, rfl⟩ := hw
  rw [Ideal.sign_coe, ← EReal.coe_sub, ← EReal.coe_add, EReal.coe_eq_coe_iff]
  ring

end Cert.SignLinear

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Payload.lean ====
/-
  The value the kernel body stores, read at an index, on the extended reals.

  The body holds a block `x` of 4096 rows of the input, the whole latent weight matrix `w` (output channel by input
  feature), and the scale and bias rows. It forms the sign of every weight (`±1` where `|w| > 0`, the weight itself —
  zero — elsewhere), transposes it to feature by channel, multiplies column `q` by `scale[q]`, takes the matrix
  product of `x` with that into a zero accumulator, and adds `bias[q]` to column `q`. The changes of float format on
  the way are the identity on the extended reals. So the stored block's entry at row `p`, channel `q` is

      ∑ k, x[p,k] · (sign w[q,k] · scale[q])  +  bias[q].
-/
import proofs.«177540_j65627100283220_2_alg».proof.Proof.Gen.KernelIdeal.Skeleton
import proofs.«177540_j65627100283220_2_alg».proof.Proof.Spec
import proofs.«177540_j65627100283220_2_alg».proof.Proof.LibPlainDot
import Idealize.ShloMosaic.Lib.ValueLayout
import Idealize.ShloMosaic.Lib.Pipeline.Value

noncomputable section

namespace Cert.KernelIdeal.BodyValue

open Cert.KernelIdeal Cert.KernelIdeal.Gen Idealize.ShloMosaic Idealize.ShloMosaic.ValueIdx

/-- The body's spelling of the sign — one with the weight's sign where the weight's magnitude is positive, the weight
    itself elsewhere — is the sign of each entry. -/
theorem body_sign (w : FVec Ideal S256x256 .f32) :
    select (cmpf .ogt (absf w) (broadcast S256x256 (Scalar.ofBits (F := Ideal) .f32 0x00000000#32)))
        (select (cmpf .olt w (constant (F := Ideal) S256x256 .f32 0x00000000#32)) (constant (F := Ideal) S256x256 .f32 0xBF800000#32)
          (constant (F := Ideal) S256x256 .f32 0x3F800000#32)) w
      = fun i => Ideal.sign (w i) :=
  funext fun i => Ideal.jnp_sign_eq_sign_f32 (w i)

/-- The right operand of the product, feature `k` by channel `q`: the sign of the weight of channel `q` at feature `k`,
    times that channel's scale. -/
theorem scaled_sign_apply (w : FVec Ideal S256x256 .f32) (s : FVec Ideal S1x256 .f32) (k q : Fin 256) :
    mulf (transpose S256x256 [1, 0]
          (select (cmpf .ogt (absf w) (broadcast S256x256 (Scalar.ofBits (F := Ideal) .f32 0x00000000#32)))
            (select (cmpf .olt w (constant (F := Ideal) S256x256 .f32 0x00000000#32)) (constant (F := Ideal) S256x256 .f32 0xBF800000#32)
              (constant (F := Ideal) S256x256 .f32 0x3F800000#32)) w)
          transposes_S256x256_p1_0_S256x256)
        (broadcastTo S256x256 (shapeCast S1x256 s shapeCasts_S1x256_S1x256) broadcasts_S1x256_S256x256) (ix2 k q)
      = Ideal.sign (w (ix2 q k)) * s (ix2 (0 : Fin 1) q) := by
  rw [mulf_apply, body_sign, transpose_ix2_apply, broadcastTo_1b_ab_apply, shapeCast_self]

/-- The stored block at row `p`, channel `q`. -/
theorem pay_apply (x : FVec Ideal S4096x256 .f32) (w : FVec Ideal S256x256 .f32) (s b : FVec Ideal S1x256 .f32)
    (p : Fin 4096) (q : Fin 256) :
    k0_pay1 (F := Ideal) x w s b (ix2 p q)
      = (∑ k : Fin 256, x (ix2 p k) * (Ideal.sign (w (ix2 q k)) * s (ix2 (0 : Fin 1) q))) + b (ix2 (0 : Fin 1) q) := by
  unfold k0_pay1
  dsimp only
  rw [addf_apply, broadcastTo_1b_ab_apply, shapeCast_self b]
  unfold matmul
  rw [Cert.Lib.PlainDot.matmul_zero_eq dot_S4096x256_S256x256_S4096x256_1_0_0_1_n_n rfl,
    Cert.Lib.PlainDot.rowsByCols_apply]
  refine congrArg (· + b (ix2 (0 : Fin 1) q)) (Finset.sum_congr rfl fun k _ => ?_)
  exact congrArg (x (ix2 p k) * ·) (scaled_sign_apply w s k q)

/-- The stored block against the layer of whole arrays: if row `p` of the block `x` is row `P` of the array `X`, the
    weight block is the weight array, and the scale and bias rows hold the scale and bias vectors at channel `q`, then
    the stored entry at `(p, q)` is the layer's entry at `(P, q)`. -/
theorem pay_eq_layer (x : FVec Ideal S4096x256 .f32) (w : FVec Ideal S256x256 .f32) (s b : FVec Ideal S1x256 .f32)
    (X : S131072x256.Idx → EReal) (W : S256x256.Idx → EReal) (sc bi : S256.Idx → EReal)
    (p : Fin 4096) (q : Fin 256) (P : Fin 131072)
    (hx : ∀ k : Fin 256, x (ix2 p k) = X (ix2 P k)) (hw : ∀ k : Fin 256, w (ix2 q k) = W (ix2 q k))
    (hs : s (ix2 (0 : Fin 1) q) = sc (ix1 q)) (hb : b (ix2 (0 : Fin 1) q) = bi (ix1 q)) :
    k0_pay1 (F := Ideal) x w s b (ix2 p q) = Cert.SignLinear.layer 131072 X W sc bi (ix2 P q) := by
  rw [pay_apply, Cert.SignLinear.layer_apply]
  unfold Cert.SignLinear.entry
  rw [hs, hb]
  exact congrArg (· + bi (ix1 q)) (Finset.sum_congr rfl fun k _ => by rw [hx k, hw k])

end Cert.KernelIdeal.BodyValue

end
-- ==== Proof.Blocks.lean ====
/-
  From blocks to the whole array.

  The grid has 32 points. Point `t` reads rows `4096·t … 4096·t + 4095` of the input, the whole weight matrix, and the
  scale and bias rows (the `[256]` vectors recast to `[1, 256]` before the launch), and writes back rows
  `4096·t … 4096·t + 4095` of the result. A row of the layer depends on that row of the input only, so what point `t`
  writes back is block `t` of the layer of the whole arrays; the 32 blocks tile the 131072 rows (row `r` is in block
  `r / 4096`), so after the run the result array is the layer.
-/
import proofs.«177540_j65627100283220_2_alg».proof.Proof.Gen.KernelIdeal.Value
import proofs.«177540_j65627100283220_2_alg».proof.Proof.Payload
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the grid: the input block and the output block of point `t` are block row `t`; the
    weights, the scale row and the bias row are the one block of their arrays at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## The scale and bias rows the region finds -/

/-- The region finds the scale row as the scale vector recast to one row. -/
theorem found_scale (c : Dev nD) :
    (V m c main_v0 : S1x256.Idx → EReal) = shapeCast S1x256 (m ((c : Thread nD τ).loc main_arg2)) shapeCasts_S256_S1x256 := by
  dsimp only [Gen.V, Gen.hostOps0]; after_results; rfl

/-- The region finds the bias row as the bias vector recast to one row. -/
theorem found_bias (c : Dev nD) :
    (V m c main_v1 : S1x256.Idx → EReal) = shapeCast S1x256 (m ((c : Thread nD τ).loc main_arg3)) shapeCasts_S256_S1x256 := by
  dsimp only [Gen.V, Gen.hostOps0]; after_results; rfl

/-! ## The blocks point `t` reads -/

/-- Row `p` of the input block at point `t` is row `4096·t + p` of the input. -/
theorem read_input (c : Dev nD) (t : Fin cfg0.N) (p : Fin 4096) (k : Fin 256) (P : Fin 131072) (hP : P.val = t.val * 4096 + p.val) :
    iblk m c 0 t (ix2 p k) = m ((c : Thread nD τ).loc main_arg0) (ix2 P k) := by
  obtain ⟨e0, e1, -⟩ := block_indices t
  show V m c main_arg0 (((cfg0.win 0).blk t).view.emb (ix2 p k)) = _
  rw [V_main_arg0]
  refine congrArg _ (funext fun a => Fin.ext ?_)
  match a with
  | ⟨0, _⟩ => show win0_0.index t (0 : Fin 2) * 4096 + 1 * p.val = P.val; omega
  | ⟨1, _⟩ => show win0_0.index t (1 : Fin 2) * 256 + 1 * k.val = k.val; omega

/-- The weight block at every point is the weight matrix. -/
theorem read_weights (c : Dev nD) (t : Fin cfg0.N) (q k : Fin 256) :
    iblk m c 1 t (ix2 q k) = m ((c : Thread nD τ).loc main_arg1) (ix2 q k) := by
  obtain ⟨-, -, e0, e1, -⟩ := block_indices t
  show V m c main_arg1 (((cfg0.win 1).blk t).view.emb (ix2 q k)) = _
  rw [V_main_arg1]
  refine congrArg _ (funext fun a => Fin.ext ?_)
  match a with
  | ⟨0, _⟩ => show win0_1.index t (0 : Fin 2) * 256 + 1 * q.val = q.val; omega
  | ⟨1, _⟩ => show win0_1.index t (1 : Fin 2) * 256 + 1 * k.val = k.val; omega

/-- The scale row at every point holds the scale vector. -/
theorem read_scale (c : Dev nD) (t : Fin cfg0.N) (q : Fin 256) :
    iblk m c 2 t (ix2 (0 : Fin 1) q) = m ((c : Thread nD τ).loc main_arg2) (ix1 q) := by
  obtain ⟨-, -, -, -, e0, e1, -⟩ := block_indices t
  show V m c main_v0 (((cfg0.win 2).blk t).view.emb (ix2 (0 : Fin 1) q)) = _
  have he : ((cfg0.win 2).blk t).view.emb (ix2 (0 : Fin 1) q) = ix2 (0 : Fin 1) q := by
    refine funext fun a => Fin.ext ?_
    match a with
    | ⟨0, _⟩ => show win0_2.index t (0 : Fin 2) * 1 + 1 * 0 = 0; omega
    | ⟨1, _⟩ => show win0_2.index t (1 : Fin 2) * 256 + 1 * q.val = q.val; omega
  rw [he, found_scale, shapeCast_a_1a_apply]

/-- The bias row at every point holds the bias vector. -/
theorem read_bias (c : Dev nD) (t : Fin cfg0.N) (q : Fin 256) :
    iblk m c 3 t (ix2 (0 : Fin 1) q) = m ((c : Thread nD τ).loc main_arg3) (ix1 q) := by
  obtain ⟨-, -, -, -, -, -, e0, e1, -⟩ := block_indices t
  show V m c main_v1 (((cfg0.win 3).blk t).view.emb (ix2 (0 : Fin 1) q)) = _
  have he : ((cfg0.win 3).blk t).view.emb (ix2 (0 : Fin 1) q) = ix2 (0 : Fin 1) q := by
    refine funext fun a => Fin.ext ?_
    match a with
    | ⟨0, _⟩ => show win0_3.index t (0 : Fin 2) * 1 + 1 * 0 = 0; omega
    | ⟨1, _⟩ => show win0_3.index t (1 : Fin 2) * 256 + 1 * q.val = q.val; omega
  rw [he, found_bias, shapeCast_a_1a_apply]

/-! ## What point `t` writes back -/

/-- The layer of the four argument arrays as launched. -/
abbrev result (c : Dev nD) : S131072x256.Idx → EReal :=
  Cert.SignLinear.layer 131072 (m ((c : Thread nD τ).loc main_arg0)) (m ((c : Thread nD τ).loc main_arg1))
    (m ((c : Thread nD τ).loc main_arg2)) (m ((c : Thread nD τ).loc main_arg3))

/-- Point `t` writes back block `t` of the layer. -/
theorem flushed_eq (c : Dev nD) (t : Fin cfg0.N) :
    (dats m 0 c).flushed 4 t = ((cfg0.win 4).blk t).view.read (Elt Ideal) (result m c) := by
  rw [Value.flushed4]
  unfold out0_4
  rw [View.canon_unit_zero offsets_zero]
  simp only [View.ld_unit_zero (S := S4096x256) offsets_zero, View.ld_unit_zero (S := S256x256) offsets_zero,
    View.ld_unit_zero (S := S1x256) offsets_zero]
  refine funext fun (y : S4096x256.Idx) => ?_
  obtain ⟨p, q, rfl⟩ : ∃ (p : Fin 4096) (q : Fin 256), y = ix2 p q := ⟨y 0, y 1, eq_ix2 y⟩
  obtain ⟨-, -, -, -, -, -, -, -, e0, e1⟩ := block_indices t
  have hN : t.val < 32 := lt_of_lt_of_eq t.isLt N_0
  have hP : t.val * 4096 + p.val < 131072 := by have := p.isLt; omega
  have he : ((cfg0.win 4).blk t).view.emb (ix2 p q) = ix2 (⟨t.val * 4096 + p.val, hP⟩ : Fin 131072) q := by
    refine funext fun a => Fin.ext ?_
    match a with
    | ⟨0, _⟩ => show win0_4.index t (0 : Fin 2) * 4096 + 1 * p.val = t.val * 4096 + p.val; omega
    | ⟨1, _⟩ => show win0_4.index t (1 : Fin 2) * 256 + 1 * q.val = q.val; omega
  show k0_pay1 (iblk m c 0 t) (iblk m c 1 t) (iblk m c 2 t) (iblk m c 3 t) (ix2 p q)
      = result m c (((cfg0.win 4).blk t).view.emb (ix2 p q))
  rw [he]
  exact Cert.KernelIdeal.BodyValue.pay_eq_layer (iblk m c 0 t) (iblk m c 1 t) (iblk m c 2 t) (iblk m c 3 t)
    (m ((c : Thread nD τ).loc main_arg0)) (m ((c : Thread nD τ).loc main_arg1))
    (m ((c : Thread nD τ).loc main_arg2)) (m ((c : Thread nD τ).loc main_arg3)) p q ⟨t.val * 4096 + p.val, hP⟩
    (fun k => read_input m c t p k _ rfl) (fun k => read_weights m c t q k) (read_scale m c t q) (read_bias m c t q)

/-! ## The cover and the run -/

/-- An index of the result array is in point `t`'s block iff each coordinate is in the block's range on its axis. -/
theorem mem_block (t : Fin cfg0.N) (i : S131072x256.Idx) :
    i ∈ ((cfg0.win 4).blk t).view.set ↔ ∀ a : Fin 2, win0_4.index t a * S4096x256.size a ≤ (i a).val ∧ (i a).val < win0_4.index t a * S4096x256.size a + S4096x256.size a := by
  show i ∈ ((View.whole main_v2).slice (win0_4.rect t)).set ↔ _
  rw [View.set_slice_whole, Rect.mem_set_unit]
  exact Iff.rfl

/-- Every index of the result array is in some point's block: row `r` in that of point `r / 4096`. -/
theorem covered (i : S131072x256.Idx) :
    ∃ t : Fin cfg0.N, (cfg0.win 4).flush t = true ∧ i ∈ ((cfg0.win 4).blk t).view.set := by
  have hi0 : (i 0).val < 131072 := (i 0).isLt
  have hi1 : (i 1).val < 256 := (i 1).isLt
  have hN : cfg0.N = 32 := N_0
  have ht : (i 0).val / 4096 < cfg0.N := by rw [hN]; omega
  refine ⟨⟨(i 0).val / 4096, ht⟩, flush0_4 _, ?_⟩
  obtain ⟨-, -, -, -, -, -, -, -, e0, e1⟩ := block_indices ⟨(i 0).val / 4096, ht⟩
  rw [mem_block]
  intro a
  match a with
  | ⟨0, _⟩ =>
    show win0_4.index ⟨(i 0).val / 4096, ht⟩ (0 : Fin 2) * 4096 ≤ (i 0).val ∧ (i 0).val < win0_4.index ⟨(i 0).val / 4096, ht⟩ (0 : Fin 2) * 4096 + 4096
    rw [e0]
    show (i 0).val / 4096 * 4096 ≤ (i 0).val ∧ (i 0).val < (i 0).val / 4096 * 4096 + 4096
    omega
  | ⟨1, _⟩ =>
    show win0_4.index ⟨(i 0).val / 4096, ht⟩ (1 : Fin 2) * 256 ≤ (i 1).val ∧ (i 1).val < win0_4.index ⟨(i 0).val / 4096, ht⟩ (1 : Fin 2) * 256 + 256
    rw [e1]
    omega

/-- After the run the result array is the layer of the arguments. -/
theorem final (c : Dev nD) : (dats m 0 c).arrAt 4 cfg0.N = result m c :=
  (dats m 0 c).arrAt_eq_of_cover 4 (result m c) (fun t _ => flushed_eq m c t) covered

/-- The kernel's run: it terminates with the result array at the layer of the arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.RefValue.lean ====
/-
  The reference, entry by entry, is the sign-weighted layer.

  The reference forms the straight-through weight `W + (sign W − W)`, scales row `q` by `scale[q]` (the scale
  vector spread over the rows), contracts `x` with it over the feature axis of both, and adds `bias[q]` to column
  `q` (the bias vector spread over the columns). Read at row `p`, channel `q`, that is

      ∑ k, x[p,k] · ((W[q,k] + (sign W[q,k] − W[q,k])) · scale[q])  +  bias[q],

  and for real weights the straight-through weight is the sign, which gives the layer's entry.
-/
import proofs.«177540_j65627100283220_2_alg».proof.Proof.Gen.ReferenceIdeal.Read
import proofs.«177540_j65627100283220_2_alg».proof.Proof.Spec

noncomputable section

namespace Cert.ReferenceIdeal.RefValue

open Cert.ReferenceIdeal Cert.ReferenceIdeal.Read Idealize.ShloMosaic Idealize.ShloMosaic.ValueIdx

/-- The reference's result, for a weight matrix of real numbers, is the layer of the four arguments. -/
theorem result_eq_layer (x : S131072x256.Idx → EReal) (W : S256x256.Idx → EReal) (s b : S256.Idx → EReal)
    (hW : ∀ i, ∃ r : ℝ, W i = (r : EReal)) :
    val_main_v9 (F := Ideal) x W s b = Cert.SignLinear.layer 131072 x W s b := by
  funext j
  obtain ⟨p, q, rfl⟩ : ∃ (p : Fin 131072) (q : Fin 256), j = ix2 p q := ⟨j 0, j 1, eq_ix2 j⟩
  rw [Cert.SignLinear.layer_apply]
  unfold Cert.SignLinear.entry
  have eb : idx_main_v7 (idx_main_v8 (ix2 p q)) = ix1 q :=
    funext fun a => Fin.ext (by match a with | ⟨0, _⟩ => rfl)
  rw [val_main_v9_apply, val_main_v6_apply, val_main_v8_apply, val_main_v7_apply, eb, Ideal.addf_def]
  refine congrArg (· + b (ix1 q)) (Finset.sum_congr rfl fun k _ => ?_)
  have el : lidx_main_v6 (ix2 p q) k = ix2 p k :=
    funext fun a => Fin.ext (by match a with | ⟨0, _⟩ => rfl | ⟨1, _⟩ => rfl)
  have er : ridx_main_v6 (ix2 p q) k = ix2 q k :=
    funext fun a => Fin.ext (by match a with | ⟨0, _⟩ => rfl | ⟨1, _⟩ => rfl)
  have es : idx_main_v3 (idx_main_v4 (ix2 q k)) = ix1 q :=
    funext fun a => Fin.ext (by match a with | ⟨0, _⟩ => rfl)
  rw [el, er, val_main_v5_apply, val_main_v2_apply, val_main_v1_apply, val_main_v0_apply, val_main_v4_apply,
    val_main_v3_apply, es, Ideal.mulf_def, Ideal.addf_def, Ideal.subf_def, Ideal.hostUnary_sign_def,
    Cert.SignLinear.ste_eq_sign _ (hW _)]

end Cert.ReferenceIdeal.RefValue

end
-- ==== Proof.Finite.lean ====
/-
  Finite weights, from the precondition.

  The precondition is the conjunction, over the four inputs, of "every entry's magnitude is below +∞". On the extended
  reals an entry whose magnitude `max w (−w)` is below `+∞` is neither infinity, hence a real number. Only the second
  conjunct, about the latent weight matrix, is needed: it is what makes `W + (sign W − W)` equal to `sign W`.
-/
import proofs.«177540_j65627100283220_2_alg».proof.Pre_finite_inputs
import proofs.«177540_j65627100283220_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs Cert.Pre_finite_inputs.Gen

/-- The rank-0 shape has one index. -/
instance : Subsingleton S_.Idx := ⟨fun _ _ => funext fun d => d.elim0⟩

/-- An extended real whose magnitude compares below the word of `+∞` is a real number. -/
theorem real_of_abs_lt_inf (x : EReal)
    (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hlt : max x (-x) < ⊤ := by
    by_contra hn
    simp [Ideal.cmp, hn] at h
  induction x using EReal.rec with
  | bot => simp at hlt
  | coe r => exact ⟨r, rfl⟩
  | top => simp at hlt

/-- Under the precondition every entry of the latent weight matrix is a real number. -/
theorem weights_real (a0 : FVec Ideal S131072x256 .f32) (a1 : FVec Ideal S256x256 .f32) (a2 a3 : FVec Ideal S256 .f32)
    (h : fn (F := Ideal) a0 a1 a2 a3 = fun _ => 1#1) (i : S256x256.Idx) : ∃ r : ℝ, a1 i = (r : EReal) := by
  have h0 := congrFun h ValueIdx.ix0
  dsimp only [fn, fn_part1] at h0
  have h1 := (IntOp.andi_eq_one.mp (show IntOp.andi _ _ = 1#1 from h0)).1
  have h2 := (IntOp.andi_eq_one.mp (show IntOp.andi _ _ = 1#1 from h1)).1
  have h3 := (IntOp.andi_eq_one.mp (show IntOp.andi _ _ = 1#1 from h2)).2
  have h4 := Host.reduce_andi_all _ _ _ _ _ h3 i
  exact real_of_abs_lt_inf (a1 i) h4

end Cert.Pre_finite_inputs.Finite

end
-- ==== Proof.lean ====
/-
  A linear layer with binarised weights: the kernel against its reference, on the extended reals.

  Both programs compute, for an input `x` of 131072 rows and 256 features, a latent weight matrix `W` (256 channels by
  256 features), a per-channel `scale` and a `bias`,

      out[p,q] = ∑ k, x[p,k] · (sign W[q,k] · scale[q])  +  bias[q].

  The kernel works on blocks of 4096 rows: it forms `sign W` as "one with the weight's sign where the weight's
  magnitude is positive, else the weight", transposes it, scales its columns, multiplies the block of `x` by it into a
  zero accumulator and adds the bias row (Proof/Payload.lean); the 32 blocks tile the result (Proof/Blocks.lean). The
  reference spells the binarised weight as `W + (sign W − W)`, scales its rows, contracts `x` with it over the
  feature axis and adds the bias (Proof/RefValue.lean). The two agree because `W + (sign W − W) = sign W` for every
  real `W` (Proof/Spec.lean) — the one place the precondition is used: it makes every weight finite
  (Proof/Finite.lean). No other law is needed: the two sums have the same terms in the same order.

  The kernel as printed reads the sign bit of each weight's word; its idealization replaces that by the comparison
  with zero, which is the one entry of the idealization's ledger and the content of the fourth claim.
-/
import proofs.«177540_j65627100283220_2_alg».proof.Defs
import proofs.«177540_j65627100283220_2_alg».proof.Proof.Gen.Kernel
import proofs.«177540_j65627100283220_2_alg».proof.Proof.Gen.Kernel.Skeleton
import proofs.«177540_j65627100283220_2_alg».proof.Proof.Gen.Kernel.Launch
import proofs.«177540_j65627100283220_2_alg».proof.Proof.Gen.Kernel.Points
import proofs.«177540_j65627100283220_2_alg».proof.Proof.Gen.Kernel.Frame
import proofs.«177540_j65627100283220_2_alg».proof.Proof.Gen.KernelIdeal
import proofs.«177540_j65627100283220_2_alg».proof.Proof.Gen.KernelIdeal.Skeleton
import proofs.«177540_j65627100283220_2_alg».proof.Proof.Gen.KernelIdeal.Launch
import proofs.«177540_j65627100283220_2_alg».proof.Proof.Gen.KernelIdeal.Points
import proofs.«177540_j65627100283220_2_alg».proof.Proof.Gen.KernelIdeal.Frame
import proofs.«177540_j65627100283220_2_alg».proof.Proof.Gen.ReferenceIdeal
import proofs.«177540_j65627100283220_2_alg».proof.Proof.Gen.Pre_finite_inputs
import proofs.«177540_j65627100283220_2_alg».proof.Proof.Gen.KernelIdeal.Value
import proofs.«177540_j65627100283220_2_alg».proof.Proof.Gen.ReferenceIdeal.Run
import proofs.«177540_j65627100283220_2_alg».proof.Proof.Gen.ReferenceIdeal.Read
import proofs.«177540_j65627100283220_2_alg».proof.Proof.Blocks
import proofs.«177540_j65627100283220_2_alg».proof.Proof.RefValue
import proofs.«177540_j65627100283220_2_alg».proof.Proof.Finite
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization's one rewrite: one carrying the weight's sign bit becomes "−1 below zero, else 1". -/
theorem preserves : Cert.preserves_Kernel_KernelIdeal :=
  IdealRules.sign_bit.statement Cert.KernelIdeal.S256x256 .f32

/-- Both idealized programs end with the result array at the layer of the arguments: the kernel block by block, the
    reference entry by entry using that the weights are finite. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2]
  exact Cert.ReferenceIdeal.RefValue.result_eq_layer _ _ _ _
    (fun i => Cert.Pre_finite_inputs.Finite.weights_real _ _ _ _ (hpre c) i)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
